-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 86
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, with its result named.

  The program is seven segments: three stretches of host operations, the first dense transform as a
  pipelined region over ten row blocks, one stretch, the second dense transform as a region, one stretch.
  The buffer contents at each boundary are a fold from the launch memory (`W0 … W7`); every weakly fair
  execution ends with every unscoped buffer at the last boundary's contents `W7`. Read at the six
  arguments that gives the frame; read also at the result buffer it names the result: whatever `W7` holds
  there. What `W7` holds there is then a matter of walking the fold back, segment by segment.
-/
import proofs.«151225_j89988154786374_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents there, and the six arguments end as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Final

end
-- ==== Proof.Graph.lean ====
/-
  The graph convolution both programs compute, as named pieces.

  From the edge list `e : i32[2, 1600000]` both programs build the source and destination node of each of
  1 700 000 edges — the given edges followed by one self loop per node —, the in-degree of every node
  (a sum of ones scattered to the destinations), its inverse square root where the degree is positive and
  zero elsewhere, and one weight per edge: the product of that quantity at the edge's two ends.
  One layer then takes a node table `h : f32[100000, 128]`: row `src` of `h` for every edge, scaled by the
  edge's weight, summed into row `dst`, plus a bias row. The network is
      layer (dense (relu (layer (dense x W1) b1)) W2) b2,
  with `dense` the plain matrix product and `relu` the maximum with zero.

  Everything here is stated for any float type: it is the programs' own operations, composed. A node
  number that is negative is read from the end of the table (`wrapIdx`), as both programs do before each
  gather. Nothing is assumed of the edge list's contents.
-/
import proofs.«151225_j89988154786374_1_alg».proof.Proof.Gen.ReferenceIdeal

noncomputable section

namespace Cert.Graph

open Idealize.ShloMosaic Cert.ReferenceIdeal Cert.ReferenceIdeal.Gen

variable {F : FTy → Type} [FloatOps F]

/-- The arrays' types, as the programs' buffers hold them. -/
abbrev Edges (F : FTy → Type) := (⟨S2x1600000, .i32⟩ : BufTy).Contents (Elt F)
abbrev EdgeIdx (F : FTy → Type) := (⟨S1700000, .i32⟩ : BufTy).Contents (Elt F)
abbrev EdgeW (F : FTy → Type) := (⟨S1700000, .f32⟩ : BufTy).Contents (Elt F)
abbrev NodeVec (F : FTy → Type) := (⟨S100000, .f32⟩ : BufTy).Contents (Elt F)
abbrev NodeTab (F : FTy → Type) := (⟨S100000x128, .f32⟩ : BufTy).Contents (Elt F)
abbrev Weights (F : FTy → Type) := (⟨S128x128, .f32⟩ : BufTy).Contents (Elt F)
abbrev Bias (F : FTy → Type) := (⟨S128, .f32⟩ : BufTy).Contents (Elt F)

/-- Row `r` of the edge list followed by the node numbers 0 … 99999 (the self loops). -/
def endpoints (r : Fin 2 → Nat) (hr : S2x1600000.Slices r S1x1600000) (e : Edges F) : EdgeIdx F :=
  concatenate S1700000 0 [⟨S1600000, (shapeCast _ (extractStridedSlice S1x1600000 r e hr) shapeCasts_S1x1600000_S1600000)⟩, ⟨S100000, (iotaInDim S100000 32 0)⟩] concatenates_S1600000_S100000_S1700000_d0

/-- Every edge's source node … -/
def src (e : Edges F) : EdgeIdx F := endpoints ![0, 0] slices_S2x1600000_S1x1600000_0_0 e
/-- … and destination node. -/
def dst (e : Edges F) : EdgeIdx F := endpoints ![1, 0] slices_S2x1600000_S1x1600000_1_0 e

/-- A negative node number counts from the end of the table. -/
def wrapIdx (i : EdgeIdx F) : EdgeIdx F :=
  select (cmpi .slt i (broadcastInDim S1700000 ![] bcast_S_S1700000 (constantI S_ 32 0#32))) (addi i (broadcastInDim S1700000 ![] bcast_S_S1700000 (constantI S_ 32 100000#32))) i

/-- The in-degree of every node: ones summed into the edges' destinations. -/
def degree (d : EdgeIdx F) : NodeVec F :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `where(deg > 0, rsqrt(deg), 0)` from its three operands, as the outlined `_where` computes it. -/
def whereOr (p : (⟨S100000, .i1⟩ : BufTy).Contents (Elt F)) (v : NodeVec F) (z : (⟨S_, .f32⟩ : BufTy).Contents (Elt F)) : NodeVec F :=
  select p v (broadcastInDim S100000 ![] bcast_S_S100000 (id z))

/-- The inverse square root of the degree where it is positive, zero elsewhere. -/
def invSqrtDeg (d : EdgeIdx F) : NodeVec F :=
  whereOr (cmpf .ogt (degree d) (broadcastInDim S100000 ![] bcast_S_S100000 (constant S_ .f32 0x00000000#32))) (Host.rsqrt (degree d)) (constant S_ .f32 0x00000000#32)

/-- A node quantity read at every edge's end `i`. -/
def atEnds (q : NodeVec F) (i : EdgeIdx F) : EdgeW F :=
  Host.gather gather_S100000_S1700000x1_S1700000_n_0_n_n_0_1_1 q (broadcastInDim S1700000x1 ![0] bcast_S1700000_S1700000x1_0 (wrapIdx i))

/-- An edge's weight from a node quantity: its values at the two ends, multiplied. -/
def edgeWeight (q : NodeVec F) (s d : EdgeIdx F) : EdgeW F := mulf (atEnds q s) (atEnds q d)

/-- The symmetric normalisation: one weight per edge. -/
def norm (e : Edges F) : EdgeW F := edgeWeight (invSqrtDeg (dst e)) (src e) (dst e)

/-- One layer's aggregation: rows of `h` gathered at the sources, scaled by the edges' weights, summed into
    the destinations, plus the bias row. -/
def layer (h : NodeTab F) (s d : EdgeIdx F) (w : EdgeW F) (b : Bias F) : NodeTab F :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrapIdx s))) (broadcastInDim S1700000x128 ![0, 1] bcast_S1700000x1_S1700000x128_0_1 (broadcastInDim S1700000x1 ![0] bcast_S1700000_S1700000x1_0 w)))) (broadcastInDim S100000x128 ![0, 1] bcast_S1x128_S100000x128_0_1 (broadcastInDim S1x128 ![1] bcast_S128_S1x128_1 b))

/-- The dense transform: the plain product of a node table with a weight matrix. -/
def dense (x : NodeTab F) (w : Weights F) : NodeTab F :=
  Host.dotGeneral dot_S100000x128_S128x128_S100000x128_1_0_0_1_n_n none x w

/-- The maximum with zero, entry by entry. -/
def relu (h : NodeTab F) : NodeTab F :=
  maximumf h (broadcastInDim S100000x128 ![] bcast_S_S100000x128 (constant S_ .f32 0x00000000#32))

/-- The two-layer network. -/
def gcn (x : NodeTab F) (e : Edges F) (w1 : Weights F) (b1 : Bias F) (w2 : Weights F) (b2 : Bias F) : NodeTab F :=
  layer (dense (relu (layer (dense x w1) (src e) (dst e) (norm e) b1)) w2) (src e) (dst e) (norm e) b2

end Cert.Graph

end
-- ==== Proof.KernelStretch.lean ====
/-
  The kernel program's five stretches of host operations, each read as one step.

  From ANY contents `X` of the buffers: the first stretch leaves the edges' sources and destinations, the
  degree test and the inverse square root of the degree; the three operations of the outlined `where` leave
  the normalising node quantity; the third stretch leaves every edge's weight; the stretch after the first
  region leaves one layer's aggregation of the region's output with the first bias, the stretch after the
  second region the same of the second region's output with the second bias. Each stretch writes only its
  own results: what an earlier stretch left, and the arguments, it leaves alone.
-/
import proofs.«151225_j89988154786374_1_alg».proof.Proof.Graph
import proofs.«151225_j89988154786374_1_alg».proof.Proof.Gen.KernelIdeal.Launch
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F] (X : Valuation τ sig (Elt F))

/-! ## What each stretch computes -/

theorem first_src : after (hostOps0 (F := F)) X (Proc.devRef .tc main_v3) = Graph.src (X (Proc.devRef .tc main_arg1)) := by
  dsimp only [hostOps0]
  after_results
  rfl
theorem first_dst : after (hostOps0 (F := F)) X (Proc.devRef .tc main_v6) = Graph.dst (X (Proc.devRef .tc main_arg1)) := by
  dsimp only [hostOps0]
  after_results
  rfl
theorem first_test : after (hostOps0 (F := F)) X (Proc.devRef .tc main_v12)
    = cmpf .ogt (Graph.degree (Graph.dst (X (Proc.devRef .tc main_arg1)))) (broadcastInDim Cert.ReferenceIdeal.S100000 ![] Cert.ReferenceIdeal.Gen.bcast_S_S100000 (constant Cert.ReferenceIdeal.S_ .f32 0x00000000#32)) := by
  dsimp only [hostOps0]
  after_results
  rfl
theorem first_rsqrt : after (hostOps0 (F := F)) X (Proc.devRef .tc main_v13) = Host.rsqrt (Graph.degree (Graph.dst (X (Proc.devRef .tc main_arg1)))) := by
  dsimp only [hostOps0]
  after_results
  rfl
theorem first_zero : after (hostOps0 (F := F)) X (Proc.devRef .tc main_cst_2) = constant Cert.ReferenceIdeal.S_ .f32 0x00000000#32 := by
  dsimp only [hostOps0]
  after_results
theorem where_eq : after (hostOps0_1 (F := F)) X (Proc.devRef .tc main_v14)
    = Graph.whereOr (X (Proc.devRef .tc main_v12)) (X (Proc.devRef .tc main_v13)) (X (Proc.devRef .tc main_cst_2)) := by
  dsimp only [hostOps0_1]
  after_results
  rfl
theorem weight_eq : after (hostOps0_2 (F := F)) X (Proc.devRef .tc main_v29)
    = Graph.edgeWeight (X (Proc.devRef .tc main_v14)) (X (Proc.devRef .tc main_v3)) (X (Proc.devRef .tc main_v6)) := by
  dsimp only [hostOps0_2]
  after_results_simp <;> rfl
theorem layer1_eq : after (hostOps1 (F := F)) X (Proc.devRef .tc main_v46)
    = Graph.layer (X (Proc.devRef .tc main_v30)) (X (Proc.devRef .tc main_v3)) (X (Proc.devRef .tc main_v6)) (X (Proc.devRef .tc main_v29)) (X (Proc.devRef .tc main_arg3)) := by
  dsimp only [hostOps1]
  after_results_simp <;> rfl
theorem layer2_eq : after (hostOps2 (F := F)) X (Proc.devRef .tc main_v63)
    = Graph.layer (X (Proc.devRef .tc main_v47)) (X (Proc.devRef .tc main_v3)) (X (Proc.devRef .tc main_v6)) (X (Proc.devRef .tc main_v29)) (X (Proc.devRef .tc main_arg5)) := by
  dsimp only [hostOps2]
  after_results_simp <;> rfl

/-! ## What each stretch leaves alone -/

theorem hostOps0_keeps_main_arg0 : after (hostOps0 (F := F)) X (Proc.devRef .tc main_arg0) = X (Proc.devRef .tc main_arg0) := by
  dsimp only [hostOps0]
  after_results
theorem hostOps0_keeps_main_arg1 : after (hostOps0 (F := F)) X (Proc.devRef .tc main_arg1) = X (Proc.devRef .tc main_arg1) := by
  dsimp only [hostOps0]
  after_results
theorem hostOps0_keeps_main_arg2 : after (hostOps0 (F := F)) X (Proc.devRef .tc main_arg2) = X (Proc.devRef .tc main_arg2) := by
  dsimp only [hostOps0]
  after_results
theorem hostOps0_keeps_main_arg3 : after (hostOps0 (F := F)) X (Proc.devRef .tc main_arg3) = X (Proc.devRef .tc main_arg3) := by
  dsimp only [hostOps0]
  after_results
theorem hostOps0_keeps_main_arg4 : after (hostOps0 (F := F)) X (Proc.devRef .tc main_arg4) = X (Proc.devRef .tc main_arg4) := by
  dsimp only [hostOps0]
  after_results
theorem hostOps0_keeps_main_arg5 : after (hostOps0 (F := F)) X (Proc.devRef .tc main_arg5) = X (Proc.devRef .tc main_arg5) := by
  dsimp only [hostOps0]
  after_results
theorem hostOps0_1_keeps_main_v3 : after (hostOps0_1 (F := F)) X (Proc.devRef .tc main_v3) = X (Proc.devRef .tc main_v3) := by
  dsimp only [hostOps0_1]
  after_results
theorem hostOps0_1_keeps_main_v6 : after (hostOps0_1 (F := F)) X (Proc.devRef .tc main_v6) = X (Proc.devRef .tc main_v6) := by
  dsimp only [hostOps0_1]
  after_results
theorem hostOps0_1_keeps_main_arg0 : after (hostOps0_1 (F := F)) X (Proc.devRef .tc main_arg0) = X (Proc.devRef .tc main_arg0) := by
  dsimp only [hostOps0_1]
  after_results
theorem hostOps0_1_keeps_main_arg2 : after (hostOps0_1 (F := F)) X (Proc.devRef .tc main_arg2) = X (Proc.devRef .tc main_arg2) := by
  dsimp only [hostOps0_1]
  after_results
theorem hostOps0_1_keeps_main_arg3 : after (hostOps0_1 (F := F)) X (Proc.devRef .tc main_arg3) = X (Proc.devRef .tc main_arg3) := by
  dsimp only [hostOps0_1]
  after_results
theorem hostOps0_1_keeps_main_arg4 : after (hostOps0_1 (F := F)) X (Proc.devRef .tc main_arg4) = X (Proc.devRef .tc main_arg4) := by
  dsimp only [hostOps0_1]
  after_results
theorem hostOps0_1_keeps_main_arg5 : after (hostOps0_1 (F := F)) X (Proc.devRef .tc main_arg5) = X (Proc.devRef .tc main_arg5) := by
  dsimp only [hostOps0_1]
  after_results
theorem hostOps0_2_keeps_main_v3 : after (hostOps0_2 (F := F)) X (Proc.devRef .tc main_v3) = X (Proc.devRef .tc main_v3) := by
  dsimp only [hostOps0_2]
  after_results_simp
theorem hostOps0_2_keeps_main_v6 : after (hostOps0_2 (F := F)) X (Proc.devRef .tc main_v6) = X (Proc.devRef .tc main_v6) := by
  dsimp only [hostOps0_2]
  after_results_simp
theorem hostOps0_2_keeps_main_arg0 : after (hostOps0_2 (F := F)) X (Proc.devRef .tc main_arg0) = X (Proc.devRef .tc main_arg0) := by
  dsimp only [hostOps0_2]
  after_results_simp
theorem hostOps0_2_keeps_main_arg2 : after (hostOps0_2 (F := F)) X (Proc.devRef .tc main_arg2) = X (Proc.devRef .tc main_arg2) := by
  dsimp only [hostOps0_2]
  after_results_simp
theorem hostOps0_2_keeps_main_arg3 : after (hostOps0_2 (F := F)) X (Proc.devRef .tc main_arg3) = X (Proc.devRef .tc main_arg3) := by
  dsimp only [hostOps0_2]
  after_results_simp
theorem hostOps0_2_keeps_main_arg4 : after (hostOps0_2 (F := F)) X (Proc.devRef .tc main_arg4) = X (Proc.devRef .tc main_arg4) := by
  dsimp only [hostOps0_2]
  after_results_simp
theorem hostOps0_2_keeps_main_arg5 : after (hostOps0_2 (F := F)) X (Proc.devRef .tc main_arg5) = X (Proc.devRef .tc main_arg5) := by
  dsimp only [hostOps0_2]
  after_results_simp
theorem hostOps1_keeps_main_v3 : after (hostOps1 (F := F)) X (Proc.devRef .tc main_v3) = X (Proc.devRef .tc main_v3) := by
  dsimp only [hostOps1]
  after_results_simp
theorem hostOps1_keeps_main_v6 : after (hostOps1 (F := F)) X (Proc.devRef .tc main_v6) = X (Proc.devRef .tc main_v6) := by
  dsimp only [hostOps1]
  after_results_simp
theorem hostOps1_keeps_main_v29 : after (hostOps1 (F := F)) X (Proc.devRef .tc main_v29) = X (Proc.devRef .tc main_v29) := by
  dsimp only [hostOps1]
  after_results_simp
theorem hostOps1_keeps_main_arg4 : after (hostOps1 (F := F)) X (Proc.devRef .tc main_arg4) = X (Proc.devRef .tc main_arg4) := by
  dsimp only [hostOps1]
  after_results_simp
theorem hostOps1_keeps_main_arg5 : after (hostOps1 (F := F)) X (Proc.devRef .tc main_arg5) = X (Proc.devRef .tc main_arg5) := by
  dsimp only [hostOps1]
  after_results_simp

end Cert.KernelIdeal.Stretch

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.DenseEntry.lean ====
/-
  The dense transform, entry by entry, on both sides.

  Over the extended reals a change of float format is the identity, so the kernel body's two casts to
  bf16 vanish and its payload is a plain matrix product into zero: entry (r, n) of a 10000-row block is
  ∑ k, x (r, k) · w (k, n). The second body first takes the maximum of every entry with zero. The
  reference's `dense` is the host's dot_general of the whole table: entry (r, n) is the same sum over the
  whole table's row r. Its `relu` is the maximum with zero.
-/
import proofs.«151225_j89988154786374_1_alg».proof.Proof.Graph
import proofs.«151225_j89988154786374_1_alg».proof.Proof.LibPlainDot
import proofs.«151225_j89988154786374_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.DenseEntry

open Idealize.ShloMosaic Idealize.ShloMosaic.ValueIdx

/-- Both programs' dimension records are the plain product's: contract the left operand's columns with the right
    operand's rows. -/
theorem tableDot_eq : Cert.ReferenceIdeal.dot_S100000x128_S128x128_S100000x128_1_0_0_1_n_n = DotDims.plain 100000 128 128 := rfl
theorem blockDot_eq : Cert.KernelIdeal.dot_S10000x128_S128x128_S10000x128_1_0_0_1_n_n = DotDims.plain 10000 128 128 := rfl

/-- The zero the programs spell as the all-zero word. -/
abbrev zero32 : EReal := Ideal.ofBits .f32 0x00000000#32

/-- `dense x w` at (r, n): the inner product of row r of `x` with column n of `w`. -/
theorem dense_apply (x : Graph.NodeTab Ideal) (w : Graph.Weights Ideal) (i : Cert.ReferenceIdeal.S100000x128.Idx) :
    Graph.dense x w i = ∑ k : Fin 128, x (ix2 (i 0) k) * w (ix2 k (i 1)) := by
  unfold Graph.dense
  simp only [Host.dotGeneral]
  rw [tableDot_eq]
  exact PlainDot.dotGeneral_apply none _ x w i

/-- `relu h` at an entry: the maximum with zero. -/
theorem relu_apply (h : Graph.NodeTab Ideal) (i : Cert.ReferenceIdeal.S100000x128.Idx) :
    Graph.relu h i = max (h i) zero32 := by
  unfold Graph.relu
  show max (h i) (broadcastInDim Cert.ReferenceIdeal.S100000x128 ![] _ (constant (F := Ideal) Cert.ReferenceIdeal.S_ .f32 0x00000000#32) i) = _
  rw [broadcastInDim_apply _ _ _ i ix0 (fun a => a.elim0)]
  rfl

/-- The first body's payload at an entry of the block. -/
theorem pay0_apply (x0 : Vec Ideal Cert.KernelIdeal.S10000x128 .f32) (x1 : Vec Ideal Cert.KernelIdeal.S128x128 .f32)
    (j : Cert.KernelIdeal.S10000x128.Idx) :
    Cert.KernelIdeal.Gen.k0_pay1 x0 x1 j = ∑ k : Fin 128, x0 (ix2 (j 0) k) * x1 (ix2 k (j 1)) := by
  unfold Cert.KernelIdeal.Gen.k0_pay1
  simp only [matmul]
  rw [blockDot_eq]
  exact PlainDot.matmul_zero_apply none _ _ j

/-- The second body's payload at an entry of the block: the same sum over the row's entries cut off at zero. -/
theorem pay1_apply (x0 : Vec Ideal Cert.KernelIdeal.S10000x128 .f32) (x1 : Vec Ideal Cert.KernelIdeal.S128x128 .f32)
    (j : Cert.KernelIdeal.S10000x128.Idx) :
    Cert.KernelIdeal.Gen.k1_pay1 x0 x1 j = ∑ k : Fin 128, max (x0 (ix2 (j 0) k)) zero32 * x1 (ix2 k (j 1)) := by
  unfold Cert.KernelIdeal.Gen.k1_pay1
  simp only [matmul]
  rw [blockDot_eq]
  refine (PlainDot.matmul_zero_apply none _ _ j).trans ?_
  refine Finset.sum_congr rfl fun k _ => ?_
  rw [shapeCast_self]
  rfl

end Cert.DenseEntry

end
-- ==== Proof.Region0.lean ====
/-
  Region 0: the array it leaves.

  The region runs its body at ten grid points; point t reads rows 10000·t … 10000·t + 9999 of its input
  table and the whole weight matrix, and writes the same rows of its output table. Entry (r, n) of the
  block written at t is the body's 128-term sum over row r of the block, which is row 10000·t + r of the
  table: so what point t writes back is block t of ONE function of the whole input table, the dense transform of the input table by the weight matrix.
  The ten row blocks cover the table, hence after the region the output array is that function.
-/
import proofs.«151225_j89988154786374_1_alg».proof.Proof.DenseEntry
import proofs.«151225_j89988154786374_1_alg».proof.Proof.Gen.KernelIdeal.Frame
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's accesses start at the origin of their buffers. -/
theorem origin : (![0, 0] : Fin 2 → Nat) = fun _ => 0 := funext fun a => by fin_cases a <;> rfl

/-- The printed index maps, decided once over the grid: the input table's and the output table's block at point t is
    row block t, column block 0; the weight matrix's is the one block it has. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense transform of the input table by the weight matrix. -/
theorem flushed_eq (c : Dev nD) (t : Fin cfg0.N) :
    (dat0 V c).flushed 2 t = ((cfg0.win 2).blk t).view.read (Elt Ideal) (Graph.dense (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := block_index t
  funext j
  show k0_pay1 (iblk0 V c 0 t) (iblk0 V c 1 t) j = (Graph.dense (V c main_arg0) (V c main_arg2)) (((cfg0.win 2).blk t).view.emb j)
  refine (DenseEntry.pay0_apply (iblk0 V c 0 t) (iblk0 V c 1 t) j).trans ?_
  refine ((DenseEntry.dense_apply _ _ _).trans ?_).symm
  refine Finset.sum_congr rfl fun k _ => ?_
  have h0 : ix2 ((((cfg0.win 2).blk t).view.emb j) 0) k = ((cfg0.win 0).blk t).view.emb (ix2 (j 0) k) := by
    funext a; apply Fin.ext
    match a with
    | ⟨0, _⟩ => show win0_2.index t (0 : Fin 2) * 10000 + 1 * (j 0).val = win0_0.index t (0 : Fin 2) * 10000 + 1 * (j 0).val; omega
    | ⟨1, _⟩ => show k.val = win0_0.index t (1 : Fin 2) * 128 + 1 * k.val; omega
  have h1 : ix2 k ((((cfg0.win 2).blk t).view.emb j) 1) = ((cfg0.win 1).blk t).view.emb (ix2 k (j 1)) := by
    funext a; apply Fin.ext
    match a with
    | ⟨0, _⟩ => show k.val = win0_1.index t (0 : Fin 2) * 128 + 1 * k.val; omega
    | ⟨1, _⟩ => show win0_2.index t (1 : Fin 2) * 128 + 1 * (j 1).val = win0_1.index t (1 : Fin 2) * 128 + 1 * (j 1).val; omega
  have e0 : V c main_arg0 (ix2 ((((cfg0.win 2).blk t).view.emb j) 0) k) = iblk0 V c 0 t (ix2 (j 0) k) := congrArg (V c main_arg0) h0
  have e1 : V c main_arg2 (ix2 k ((((cfg0.win 2).blk t).view.emb j) 1)) = iblk0 V c 1 t (ix2 k (j 1)) := congrArg (V c main_arg2) h1
  exact congrArg₂ (fun a b : EReal => a * b) e0 e1

/-- An entry of the table is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row r is in the block of point r / 10000: the ten row blocks cover the table. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by show _ < grid0.N; rw [N_0]; omega
  refine ⟨⟨(i 0).val / 10000, hN⟩, flush0_2 _, ?_⟩
  rw [mem_block]
  obtain ⟨-, -, -, -, e4, e5⟩ := block_index ⟨(i 0).val / 10000, hN⟩
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val ∧ (i 1).val < win0_2.index ⟨(i 0).val / 10000, hN⟩ (1 : Fin 2) * 128 + 128
    rw [e5]; omega

/-- After the region the output array is the dense transform of the input table by the weight matrix. -/
theorem array_eq (c : Dev nD) : (dat0 V c).arrAt 2 cfg0.N = Graph.dense (V c main_arg0) (V c main_arg2) :=
  (dat0 V c).arrAt_eq_of_cover 2 _ (fun t _ => flushed_eq V c t) covered

end Cert.KernelIdeal.Region0

end
-- ==== Proof.Region1.lean ====
/-
  Region 1: the array it leaves.

  The region runs its body at ten grid points; point t reads rows 10000·t … 10000·t + 9999 of its input
  table and the whole weight matrix, and writes the same rows of its output table. Entry (r, n) of the
  block written at t is the body's 128-term sum over row r of the block, which is row 10000·t + r of the
  table: so what point t writes back is block t of ONE function of the whole input table, the dense transform, by the weight matrix, of the input table cut off at zero.
  The ten row blocks cover the table, hence after the region the output array is that function.
-/
import proofs.«151225_j89988154786374_1_alg».proof.Proof.DenseEntry
import proofs.«151225_j89988154786374_1_alg».proof.Proof.Gen.KernelIdeal.Frame
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's accesses start at the origin of their buffers. -/
theorem origin : (![0, 0] : Fin 2 → Nat) = fun _ => 0 := funext fun a => by fin_cases a <;> rfl

/-- The printed index maps, decided once over the grid: the input table's and the output table's block at point t is
    row block t, column block 0; the weight matrix's is the one block it has. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the dense transform, by the weight matrix, of the input table cut off at zero. -/
theorem flushed_eq (c : Dev nD) (t : Fin cfg1.N) :
    (dat1 V c).flushed 2 t = ((cfg1.win 2).blk t).view.read (Elt Ideal) (Graph.dense (Graph.relu (V c main_v46)) (V c main_arg4)) := by
  show (cfg1.win 2).cut (grid1.coords t) ((dat1 V c).after 2 t) = _
  rw [after1_2]
  unfold out1_2
  rw [View.canon_unit_zero origin]
  simp only [View.ld_unit_zero (S := S10000x128) origin, View.ld_unit_zero (S := S128x128) origin]
  obtain ⟨e0, e1, e2, e3, e4, e5⟩ := block_index t
  funext j
  show k1_pay1 (iblk1 V c 0 t) (iblk1 V c 1 t) j = (Graph.dense (Graph.relu (V c main_v46)) (V c main_arg4)) (((cfg1.win 2).blk t).view.emb j)
  refine (DenseEntry.pay1_apply (iblk1 V c 0 t) (iblk1 V c 1 t) j).trans ?_
  refine ((DenseEntry.dense_apply _ _ _).trans ?_).symm
  refine Finset.sum_congr rfl fun k _ => ?_
  have h0 : ix2 ((((cfg1.win 2).blk t).view.emb j) 0) k = ((cfg1.win 0).blk t).view.emb (ix2 (j 0) k) := by
    funext a; apply Fin.ext
    match a with
    | ⟨0, _⟩ => show win1_2.index t (0 : Fin 2) * 10000 + 1 * (j 0).val = win1_0.index t (0 : Fin 2) * 10000 + 1 * (j 0).val; omega
    | ⟨1, _⟩ => show k.val = win1_0.index t (1 : Fin 2) * 128 + 1 * k.val; omega
  have h1 : ix2 k ((((cfg1.win 2).blk t).view.emb j) 1) = ((cfg1.win 1).blk t).view.emb (ix2 k (j 1)) := by
    funext a; apply Fin.ext
    match a with
    | ⟨0, _⟩ => show k.val = win1_1.index t (0 : Fin 2) * 128 + 1 * k.val; omega
    | ⟨1, _⟩ => show win1_2.index t (1 : Fin 2) * 128 + 1 * (j 1).val = win1_1.index t (1 : Fin 2) * 128 + 1 * (j 1).val; omega
  have e0 : Graph.relu (V c main_v46) (ix2 ((((cfg1.win 2).blk t).view.emb j) 0) k) = (fun a : EReal => max a DenseEntry.zero32) (iblk1 V c 0 t (ix2 (j 0) k)) :=
    (DenseEntry.relu_apply (V c main_v46) _).trans (congrArg (fun a : EReal => max a DenseEntry.zero32) (congrArg (V c main_v46) h0))
  have e1 : V c main_arg4 (ix2 k ((((cfg1.win 2).blk t).view.emb j) 1)) = iblk1 V c 1 t (ix2 k (j 1)) := congrArg (V c main_arg4) h1
  exact congrArg₂ (fun a b : EReal => a * b) e0 e1

/-- An entry of the table is in point t's block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Row r is in the block of point r / 10000: the ten row blocks cover the table. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 10000 < cfg1.N := by show _ < grid1.N; rw [N_1]; omega
  refine ⟨⟨(i 0).val / 10000, hN⟩, flush1_2 _, ?_⟩
  rw [mem_block]
  obtain ⟨-, -, -, -, e4, e5⟩ := block_index ⟨(i 0).val / 10000, hN⟩
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val ∧ (i 1).val < win1_2.index ⟨(i 0).val / 10000, hN⟩ (1 : Fin 2) * 128 + 128
    rw [e5]; omega

/-- After the region the output array is the dense transform, by the weight matrix, of the input table cut off at zero. -/
theorem array_eq (c : Dev nD) : (dat1 V c).arrAt 2 cfg1.N = Graph.dense (Graph.relu (V c main_v46)) (V c main_arg4) :=
  (dat1 V c).arrAt_eq_of_cover 2 _ (fun t _ => flushed_eq V c t) covered

end Cert.KernelIdeal.Region1

end
-- ==== Proof.KernelResult.lean ====
/-
  What the idealized kernel's result buffer holds at the end of its run.

  The run's last boundary contents `W7` are a fold through the seven segments from the launch memory.
  Walking it back at the buffers that matter: after the three opening stretches the edges' sources,
  destinations and weights are `src e`, `dst e`, `norm e` of the launched edge list and the arguments are
  as launched; the first region leaves `dense x W1` in its output table and touches nothing else that is
  read later; the stretch after it leaves the first layer; the second region leaves the dense transform of
  that layer cut off at zero; the last stretch leaves the second layer. So the result buffer holds the
  network `gcn x e W1 b1 W2 b2` of the launched arguments.
-/
import proofs.«151225_j89988154786374_1_alg».proof.Proof.KernelStretch
import proofs.«151225_j89988154786374_1_alg».proof.Proof.Region0
import proofs.«151225_j89988154786374_1_alg».proof.Proof.Region1

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the three opening stretches -/

theorem W3_src : W3 m ρ c (Proc.devRef .tc main_v3) = Graph.src (m ((c : Thread nD τ).loc main_arg1)) := by
  show after hostOps0_2 (after hostOps0_1 (after hostOps0 (W0 m ρ c))) _ = _
  rw [Stretch.hostOps0_2_keeps_main_v3, Stretch.hostOps0_1_keeps_main_v3, Stretch.first_src]
theorem W3_dst : W3 m ρ c (Proc.devRef .tc main_v6) = Graph.dst (m ((c : Thread nD τ).loc main_arg1)) := by
  show after hostOps0_2 (after hostOps0_1 (after hostOps0 (W0 m ρ c))) _ = _
  rw [Stretch.hostOps0_2_keeps_main_v6, Stretch.hostOps0_1_keeps_main_v6, Stretch.first_dst]
theorem W3_norm : W3 m ρ c (Proc.devRef .tc main_v29) = Graph.norm (m ((c : Thread nD τ).loc main_arg1)) := by
  show after hostOps0_2 (after hostOps0_1 (after hostOps0 (W0 m ρ c))) _ = _
  rw [Stretch.weight_eq, Stretch.where_eq, Stretch.hostOps0_1_keeps_main_v3, Stretch.hostOps0_1_keeps_main_v6,
    Stretch.first_test, Stretch.first_rsqrt, Stretch.first_zero, Stretch.first_src, Stretch.first_dst]
  rfl
theorem W3_main_arg0 : W3 m ρ c (Proc.devRef .tc main_arg0) = m ((c : Thread nD τ).loc main_arg0) := by
  show after hostOps0_2 (after hostOps0_1 (after hostOps0 (W0 m ρ c))) _ = _
  rw [Stretch.hostOps0_2_keeps_main_arg0, Stretch.hostOps0_1_keeps_main_arg0, Stretch.hostOps0_keeps_main_arg0]
theorem W3_main_arg2 : W3 m ρ c (Proc.devRef .tc main_arg2) = m ((c : Thread nD τ).loc main_arg2) := by
  show after hostOps0_2 (after hostOps0_1 (after hostOps0 (W0 m ρ c))) _ = _
  rw [Stretch.hostOps0_2_keeps_main_arg2, Stretch.hostOps0_1_keeps_main_arg2, Stretch.hostOps0_keeps_main_arg2]
theorem W3_main_arg3 : W3 m ρ c (Proc.devRef .tc main_arg3) = m ((c : Thread nD τ).loc main_arg3) := by
  show after hostOps0_2 (after hostOps0_1 (after hostOps0 (W0 m ρ c))) _ = _
  rw [Stretch.hostOps0_2_keeps_main_arg3, Stretch.hostOps0_1_keeps_main_arg3, Stretch.hostOps0_keeps_main_arg3]
theorem W3_main_arg4 : W3 m ρ c (Proc.devRef .tc main_arg4) = m ((c : Thread nD τ).loc main_arg4) := by
  show after hostOps0_2 (after hostOps0_1 (after hostOps0 (W0 m ρ c))) _ = _
  rw [Stretch.hostOps0_2_keeps_main_arg4, Stretch.hostOps0_1_keeps_main_arg4, Stretch.hostOps0_keeps_main_arg4]
theorem W3_main_arg5 : W3 m ρ c (Proc.devRef .tc main_arg5) = m ((c : Thread nD τ).loc main_arg5) := by
  show after hostOps0_2 (after hostOps0_1 (after hostOps0 (W0 m ρ c))) _ = _
  rw [Stretch.hostOps0_2_keeps_main_arg5, Stretch.hostOps0_1_keeps_main_arg5, Stretch.hostOps0_keeps_main_arg5]

/-! ## After the first region -/

theorem W4_table : W4 m ρ c (Proc.devRef .tc main_v30)
    = Graph.dense (m ((c : Thread nD τ).loc main_arg0)) (m ((c : Thread nD τ).loc main_arg2)) := by
  refine (W4_arr m ρ c 2).trans ?_
  rw [Region0.array_eq (V3 m ρ) c]
  show Graph.dense (W3 m ρ c (Proc.devRef .tc main_arg0)) (W3 m ρ c (Proc.devRef .tc main_arg2)) = _
  rw [W3_main_arg0, W3_main_arg2]
theorem W4_src : W4 m ρ c (Proc.devRef .tc main_v3) = Graph.src (m ((c : Thread nD τ).loc main_arg1)) :=
  (W4_of_ne m ρ c main_v3 (by decide)).trans (W3_src m ρ c)
theorem W4_dst : W4 m ρ c (Proc.devRef .tc main_v6) = Graph.dst (m ((c : Thread nD τ).loc main_arg1)) :=
  (W4_of_ne m ρ c main_v6 (by decide)).trans (W3_dst m ρ c)
theorem W4_norm : W4 m ρ c (Proc.devRef .tc main_v29) = Graph.norm (m ((c : Thread nD τ).loc main_arg1)) :=
  (W4_of_ne m ρ c main_v29 (by decide)).trans (W3_norm m ρ c)
theorem W4_main_arg3 : W4 m ρ c (Proc.devRef .tc main_arg3) = m ((c : Thread nD τ).loc main_arg3) :=
  (W4_of_ne m ρ c main_arg3 (by decide)).trans (W3_main_arg3 m ρ c)
theorem W4_main_arg4 : W4 m ρ c (Proc.devRef .tc main_arg4) = m ((c : Thread nD τ).loc main_arg4) :=
  (W4_of_ne m ρ c main_arg4 (by decide)).trans (W3_main_arg4 m ρ c)
theorem W4_main_arg5 : W4 m ρ c (Proc.devRef .tc main_arg5) = m ((c : Thread nD τ).loc main_arg5) :=
  (W4_of_ne m ρ c main_arg5 (by decide)).trans (W3_main_arg5 m ρ c)

/-! ## After the stretch between the regions -/

theorem W5_layer : W5 m ρ c (Proc.devRef .tc main_v46)
    = Graph.layer (Graph.dense (m ((c : Thread nD τ).loc main_arg0)) (m ((c : Thread nD τ).loc main_arg2)))
        (Graph.src (m ((c : Thread nD τ).loc main_arg1))) (Graph.dst (m ((c : Thread nD τ).loc main_arg1)))
        (Graph.norm (m ((c : Thread nD τ).loc main_arg1))) (m ((c : Thread nD τ).loc main_arg3)) := by
  show after hostOps1 (W4 m ρ c) _ = _
  rw [Stretch.layer1_eq, W4_table, W4_src, W4_dst, W4_norm, W4_main_arg3]
theorem W5_src : W5 m ρ c (Proc.devRef .tc main_v3) = Graph.src (m ((c : Thread nD τ).loc main_arg1)) := by
  show after hostOps1 (W4 m ρ c) _ = _
  rw [Stretch.hostOps1_keeps_main_v3]
  exact W4_src m ρ c
theorem W5_dst : W5 m ρ c (Proc.devRef .tc main_v6) = Graph.dst (m ((c : Thread nD τ).loc main_arg1)) := by
  show after hostOps1 (W4 m ρ c) _ = _
  rw [Stretch.hostOps1_keeps_main_v6]
  exact W4_dst m ρ c
theorem W5_norm : W5 m ρ c (Proc.devRef .tc main_v29) = Graph.norm (m ((c : Thread nD τ).loc main_arg1)) := by
  show after hostOps1 (W4 m ρ c) _ = _
  rw [Stretch.hostOps1_keeps_main_v29]
  exact W4_norm m ρ c
theorem W5_main_arg4 : W5 m ρ c (Proc.devRef .tc main_arg4) = m ((c : Thread nD τ).loc main_arg4) := by
  show after hostOps1 (W4 m ρ c) _ = _
  rw [Stretch.hostOps1_keeps_main_arg4]
  exact W4_main_arg4 m ρ c
theorem W5_main_arg5 : W5 m ρ c (Proc.devRef .tc main_arg5) = m ((c : Thread nD τ).loc main_arg5) := by
  show after hostOps1 (W4 m ρ c) _ = _
  rw [Stretch.hostOps1_keeps_main_arg5]
  exact W4_main_arg5 m ρ c

/-! ## After the second region -/

theorem W6_table : W6 m ρ c (Proc.devRef .tc main_v47)
    = Graph.dense (Graph.relu (Graph.layer (Graph.dense (m ((c : Thread nD τ).loc main_arg0)) (m ((c : Thread nD τ).loc main_arg2)))
        (Graph.src (m ((c : Thread nD τ).loc main_arg1))) (Graph.dst (m ((c : Thread nD τ).loc main_arg1)))
        (Graph.norm (m ((c : Thread nD τ).loc main_arg1))) (m ((c : Thread nD τ).loc main_arg3))))
        (m ((c : Thread nD τ).loc main_arg4)) := by
  refine (W6_arr m ρ c 2).trans ?_
  rw [Region1.array_eq (V5 m ρ) c]
  show Graph.dense (Graph.relu (W5 m ρ c (Proc.devRef .tc main_v46))) (W5 m ρ c (Proc.devRef .tc main_arg4)) = _
  rw [W5_layer, W5_main_arg4]
theorem W6_src : W6 m ρ c (Proc.devRef .tc main_v3) = Graph.src (m ((c : Thread nD τ).loc main_arg1)) :=
  (W6_of_ne m ρ c main_v3 (by decide)).trans (W5_src m ρ c)
theorem W6_dst : W6 m ρ c (Proc.devRef .tc main_v6) = Graph.dst (m ((c : Thread nD τ).loc main_arg1)) :=
  (W6_of_ne m ρ c main_v6 (by decide)).trans (W5_dst m ρ c)
theorem W6_norm : W6 m ρ c (Proc.devRef .tc main_v29) = Graph.norm (m ((c : Thread nD τ).loc main_arg1)) :=
  (W6_of_ne m ρ c main_v29 (by decide)).trans (W5_norm m ρ c)
theorem W6_main_arg5 : W6 m ρ c (Proc.devRef .tc main_arg5) = m ((c : Thread nD τ).loc main_arg5) :=
  (W6_of_ne m ρ c main_arg5 (by decide)).trans (W5_main_arg5 m ρ c)

/-! ## At the end -/

/-- The result buffer at the last boundary is the network of the launched arguments. -/
theorem W7_result : W7 m ρ c (Proc.devRef .tc main_v63)
    = Graph.gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show after hostOps2 (W6 m ρ c) _ = _
  rw [Stretch.layer2_eq, W6_table, W6_src, W6_dst, W6_norm, W6_main_arg5]
  rfl

end Cert.KernelIdeal.Result

end
-- ==== Proof.ReferenceRun.lean ====
/-
  The reference program's run, with its result named.

  The reference is 83 host operations in a straight line (the two outlined calls, `where` and `relu`, stand
  as their bodies' operations over the call's own buffers). Every weakly fair execution ends with each
  buffer at the fold of the operations' results over the launch memory. The line is read in three parts,
  each as one step from ANY contents `X`: the first forty operations leave the edges' sources,
  destinations and weights; the next twenty the first layer, `layer (dense x W1) b1`; the last
  twenty-three the result, `layer (dense (relu h) W2) b2`. Composed: the result buffer ends at
  `gcn x e W1 b1 W2 b2` of the arguments, which end as launched.
-/
import proofs.«151225_j89988154786374_1_alg».proof.Proof.Graph
import Idealize.ShloMosaic.Lib.StableHlo.Run
import Idealize.ShloMosaic.Lib.Pipeline.Frame

set_option maxRecDepth 16384

noncomputable section

namespace Cert.ReferenceIdeal.Final

open Cert.ReferenceIdeal Cert.ReferenceIdeal.Gen
open Idealize.ShloMosaic Idealize.ShloMosaic.TcCoe Idealize.SL.Sem Idealize.ShloMosaic.StableHlo

variable {F : FTy → Type} [FloatOps F]

/-! ## The operations -/

/-- The program's operations, in order. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v46 : StableHlo.TRef sig ⟨S100000x128, .f32⟩) main_call1.v0 main_call1.v1 maximumf,
    StableHlo.binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_9 (constantI S_ 32 0#32),
    StableHlo.unary main_c_9 main_v49 (broadcastInDim S1700000 ![] bcast_S_S1700000 : (⟨S_, .i32⟩ : BufTy).Contents (Elt F) → (⟨S1700000, .i32⟩ : BufTy).Contents (Elt F)),
    StableHlo.binary main_v3 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v3 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v59 (broadcastInDim S100000x128 ![] bcast_S_S100000x128 : (⟨S_, .f32⟩ : BufTy).Contents (Elt F) → (⟨S100000x128, .f32⟩ : BufTy).Contents (Elt F)),
    StableHlo.unary main_v6 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)) ]

/-- Through the edges' weights. -/
abbrev graphOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first dense transform and its aggregation. -/
abbrev firstOps : List (HloOp τ sig (Elt F)) :=
  [ StableHlo.binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The maximum with zero, the second dense transform and its aggregation. -/
abbrev secondOps : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v46 : StableHlo.TRef sig ⟨S100000x128, .f32⟩) main_call1.v0 main_call1.v1 maximumf,
    StableHlo.binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_9 (constantI S_ 32 0#32),
    StableHlo.unary main_c_9 main_v49 (broadcastInDim S1700000 ![] bcast_S_S1700000 : (⟨S_, .i32⟩ : BufTy).Contents (Elt F) → (⟨S1700000, .i32⟩ : BufTy).Contents (Elt F)),
    StableHlo.binary main_v3 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v3 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v59 (broadcastInDim S100000x128 ![] bcast_S_S100000x128 : (⟨S_, .f32⟩ : BufTy).Contents (Elt F) → (⟨S100000x128, .f32⟩ : BufTy).Contents (Elt F)),
    StableHlo.unary main_v6 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)) ]

set_option maxHeartbeats 4000000 in
theorem main_eq (c : Dev nD) : main (F := F) c = seq ops := rfl
theorem ops_split : (ops : List (HloOp τ sig (Elt F))) = graphOps ++ (firstOps ++ secondOps) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-! ## Each part as one step, from any contents -/

section Parts
variable (X : Valuation τ sig (Elt F))

theorem graph_src : after (graphOps (F := F)) X (Proc.devRef .tc main_v3) = Graph.src (X (Proc.devRef .tc main_arg1)) := by
  dsimp only [graphOps]
  after_results
  rfl
theorem graph_dst : after (graphOps (F := F)) X (Proc.devRef .tc main_v6) = Graph.dst (X (Proc.devRef .tc main_arg1)) := by
  dsimp only [graphOps]
  after_results
  rfl
set_option maxHeartbeats 4000000 in
theorem graph_norm : after (graphOps (F := F)) X (Proc.devRef .tc main_v29) = Graph.norm (X (Proc.devRef .tc main_arg1)) := by
  dsimp only [graphOps]
  after_results
  rfl
theorem first_eq : after (firstOps (F := F)) X (Proc.devRef .tc main_v46)
    = Graph.layer (Graph.dense (X (Proc.devRef .tc main_arg0)) (X (Proc.devRef .tc main_arg2))) (X (Proc.devRef .tc main_v3)) (X (Proc.devRef .tc main_v6)) (X (Proc.devRef .tc main_v29)) (X (Proc.devRef .tc main_arg3)) := by
  dsimp only [firstOps]
  after_results_simp <;> rfl
theorem second_eq : after (secondOps (F := F)) X (Proc.devRef .tc main_v64)
    = Graph.layer (Graph.dense (Graph.relu (X (Proc.devRef .tc main_v46))) (X (Proc.devRef .tc main_arg4))) (X (Proc.devRef .tc main_v3)) (X (Proc.devRef .tc main_v6)) (X (Proc.devRef .tc main_v29)) (X (Proc.devRef .tc main_arg5)) := by
  dsimp only [secondOps]
  after_results_simp <;> rfl

theorem graphOps_keeps_main_arg0 : after (graphOps (F := F)) X (Proc.devRef .tc main_arg0) = X (Proc.devRef .tc main_arg0) := by
  dsimp only [graphOps]
  after_results_simp
theorem graphOps_keeps_main_arg1 : after (graphOps (F := F)) X (Proc.devRef .tc main_arg1) = X (Proc.devRef .tc main_arg1) := by
  dsimp only [graphOps]
  after_results_simp
theorem graphOps_keeps_main_arg2 : after (graphOps (F := F)) X (Proc.devRef .tc main_arg2) = X (Proc.devRef .tc main_arg2) := by
  dsimp only [graphOps]
  after_results_simp
theorem graphOps_keeps_main_arg3 : after (graphOps (F := F)) X (Proc.devRef .tc main_arg3) = X (Proc.devRef .tc main_arg3) := by
  dsimp only [graphOps]
  after_results_simp
theorem graphOps_keeps_main_arg4 : after (graphOps (F := F)) X (Proc.devRef .tc main_arg4) = X (Proc.devRef .tc main_arg4) := by
  dsimp only [graphOps]
  after_results_simp
theorem graphOps_keeps_main_arg5 : after (graphOps (F := F)) X (Proc.devRef .tc main_arg5) = X (Proc.devRef .tc main_arg5) := by
  dsimp only [graphOps]
  after_results_simp
theorem firstOps_keeps_main_v3 : after (firstOps (F := F)) X (Proc.devRef .tc main_v3) = X (Proc.devRef .tc main_v3) := by
  dsimp only [firstOps]
  after_results_simp
theorem firstOps_keeps_main_v6 : after (firstOps (F := F)) X (Proc.devRef .tc main_v6) = X (Proc.devRef .tc main_v6) := by
  dsimp only [firstOps]
  after_results_simp
theorem firstOps_keeps_main_v29 : after (firstOps (F := F)) X (Proc.devRef .tc main_v29) = X (Proc.devRef .tc main_v29) := by
  dsimp only [firstOps]
  after_results_simp
theorem firstOps_keeps_main_arg0 : after (firstOps (F := F)) X (Proc.devRef .tc main_arg0) = X (Proc.devRef .tc main_arg0) := by
  dsimp only [firstOps]
  after_results_simp
theorem firstOps_keeps_main_arg1 : after (firstOps (F := F)) X (Proc.devRef .tc main_arg1) = X (Proc.devRef .tc main_arg1) := by
  dsimp only [firstOps]
  after_results_simp
theorem firstOps_keeps_main_arg2 : after (firstOps (F := F)) X (Proc.devRef .tc main_arg2) = X (Proc.devRef .tc main_arg2) := by
  dsimp only [firstOps]
  after_results_simp
theorem firstOps_keeps_main_arg3 : after (firstOps (F := F)) X (Proc.devRef .tc main_arg3) = X (Proc.devRef .tc main_arg3) := by
  dsimp only [firstOps]
  after_results_simp
theorem firstOps_keeps_main_arg4 : after (firstOps (F := F)) X (Proc.devRef .tc main_arg4) = X (Proc.devRef .tc main_arg4) := by
  dsimp only [firstOps]
  after_results_simp
theorem firstOps_keeps_main_arg5 : after (firstOps (F := F)) X (Proc.devRef .tc main_arg5) = X (Proc.devRef .tc main_arg5) := by
  dsimp only [firstOps]
  after_results_simp
theorem secondOps_keeps_main_arg0 : after (secondOps (F := F)) X (Proc.devRef .tc main_arg0) = X (Proc.devRef .tc main_arg0) := by
  dsimp only [secondOps]
  after_results_simp
theorem secondOps_keeps_main_arg1 : after (secondOps (F := F)) X (Proc.devRef .tc main_arg1) = X (Proc.devRef .tc main_arg1) := by
  dsimp only [secondOps]
  after_results_simp
theorem secondOps_keeps_main_arg2 : after (secondOps (F := F)) X (Proc.devRef .tc main_arg2) = X (Proc.devRef .tc main_arg2) := by
  dsimp only [secondOps]
  after_results_simp
theorem secondOps_keeps_main_arg3 : after (secondOps (F := F)) X (Proc.devRef .tc main_arg3) = X (Proc.devRef .tc main_arg3) := by
  dsimp only [secondOps]
  after_results_simp
theorem secondOps_keeps_main_arg4 : after (secondOps (F := F)) X (Proc.devRef .tc main_arg4) = X (Proc.devRef .tc main_arg4) := by
  dsimp only [secondOps]
  after_results_simp
theorem secondOps_keeps_main_arg5 : after (secondOps (F := F)) X (Proc.devRef .tc main_arg5) = X (Proc.devRef .tc main_arg5) := by
  dsimp only [secondOps]
  after_results_simp

end Parts

/-! ## The whole line -/

/-- The result buffer after the whole line, from the launch memory. -/
theorem result_eq (m : (ℓ : Loc nD τ sig) → Buf (Elt F) ℓ) (c : Dev nD) :
    after (ops (F := F)) (launchContents m c) (Proc.devRef .tc main_v64)
      = Graph.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [ops_split, after_append, after_append, second_eq, first_eq,
    firstOps_keeps_main_v3, firstOps_keeps_main_v6, firstOps_keeps_main_v29, firstOps_keeps_main_arg4, firstOps_keeps_main_arg5,
    graph_src, graph_dst, graph_norm,
    graphOps_keeps_main_arg0, graphOps_keeps_main_arg2, graphOps_keeps_main_arg3, graphOps_keeps_main_arg4, graphOps_keeps_main_arg5]
  rfl

/-- An argument's buffer after the whole line is as launched. -/
theorem arg_eq (m : (ℓ : Loc nD τ sig) → Buf (Elt F) ℓ) (c : Dev nD) (b : Ref sig .tc)
    (h2 : ∀ X : Valuation τ sig (Elt F), after (secondOps (F := F)) X (Proc.devRef .tc b) = X (Proc.devRef .tc b))
    (h1 : ∀ X : Valuation τ sig (Elt F), after (firstOps (F := F)) X (Proc.devRef .tc b) = X (Proc.devRef .tc b))
    (h0 : ∀ X : Valuation τ sig (Elt F), after (graphOps (F := F)) X (Proc.devRef .tc b) = X (Proc.devRef .tc b)) :
    after (ops (F := F)) (launchContents m c) (Proc.devRef .tc b) = m ((c.tc : Thread nD τ).loc b) := by
  rw [ops_split, after_append, after_append, h2, h1, h0]

/-- Every weakly fair execution of the reference terminates, nothing faulting, with the result buffer at the network of
    the arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = Graph.gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (result_eq m c),
      (h c main_arg0).trans (arg_eq m c main_arg0 secondOps_keeps_main_arg0 firstOps_keeps_main_arg0 graphOps_keeps_main_arg0),
      (h c main_arg1).trans (arg_eq m c main_arg1 secondOps_keeps_main_arg1 firstOps_keeps_main_arg1 graphOps_keeps_main_arg1),
      (h c main_arg2).trans (arg_eq m c main_arg2 secondOps_keeps_main_arg2 firstOps_keeps_main_arg2 graphOps_keeps_main_arg2),
      (h c main_arg3).trans (arg_eq m c main_arg3 secondOps_keeps_main_arg3 firstOps_keeps_main_arg3 graphOps_keeps_main_arg3),
      (h c main_arg4).trans (arg_eq m c main_arg4 secondOps_keeps_main_arg4 firstOps_keeps_main_arg4 graphOps_keeps_main_arg4),
      (h c main_arg5).trans (arg_eq m c main_arg5 secondOps_keeps_main_arg5 firstOps_keeps_main_arg5 graphOps_keeps_main_arg5)⟩)
    (run_seq scopedRefs_eq scopedSems_eq defs main (fun _ => ops) main_eq (fun _ => ops_sub) m ρ)

end Cert.ReferenceIdeal.Final

end
-- ==== Proof.lean ====
/-
  Both programs compute a two-layer graph convolution over the extended reals, and this file proves
  `Cert.Claim`: they end with equal results.

  The mathematics. With `e` the edge list, `src e`, `dst e` the edges' end nodes (the given edges and one
  self loop per node) and `norm e` each edge's weight — the product over its two ends of the inverse
  square root of the in-degree, zero where the degree is zero —, one layer sends a node table `h` to
      layer h b = (for every node v)  b + ∑ over edges into v of  norm · h[source],
  and the network is  layer (dense (relu (layer (dense x W1) b1)) W2) b2  with `dense h W = h · W`.
  The reference computes every piece on the host. The kernel program computes the same host pieces in
  the same order, except the two dense transforms, which it computes block by block on the device: ten
  blocks of 10000 rows, each block's entry (r, n) the 128-term sum ∑ k, h (r, k) · W (k, n) — the inputs
  are first cast to bf16, which over the extended reals changes nothing —, the second after cutting the
  row off at zero. A row block of `h · W` depends on that row block of `h` only, and the ten blocks cover
  the table: so each region leaves exactly `dense h W`, respectively `dense (relu h) W`, the sums being
  literally the same finite sums on both sides. No term is reordered across a sum and nothing is cancelled
  or distributed, so the precondition that the inputs are finite is never used; the integer edge list may
  hold anything, since both programs read it through the same operations.

  The frames of the two kernel programs are the generated ones. The reference has no kernel: its frame
  is its run with the result dropped. `preserves` is `True` for this certificate: the idealized kernel
  program is the kernel program's own text read over the extended reals, no operation replaced.
-/
import proofs.«151225_j89988154786374_1_alg».proof.Defs
import proofs.«151225_j89988154786374_1_alg».proof.Proof.Gen.Kernel
import proofs.«151225_j89988154786374_1_alg».proof.Proof.Gen.Kernel.Frame
import proofs.«151225_j89988154786374_1_alg».proof.Proof.Gen.KernelIdeal
import proofs.«151225_j89988154786374_1_alg».proof.Proof.Gen.KernelIdeal.Frame
import proofs.«151225_j89988154786374_1_alg».proof.Proof.Gen.ReferenceIdeal
import proofs.«151225_j89988154786374_1_alg».proof.Proof.Gen.Pre_finite_inputs
import proofs.«151225_j89988154786374_1_alg».proof.Proof.KernelRun
import proofs.«151225_j89988154786374_1_alg».proof.Proof.KernelResult
import proofs.«151225_j89988154786374_1_alg».proof.Proof.ReferenceRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Final.run (F := Ideal) m ρ)

/-- No operation was replaced between the kernel program and its reading over the extended reals: there is nothing to
    preserve. -/
theorem preserves : Cert.preserves_Kernel_KernelIdeal := trivial

/-- Both programs end with the network of their arguments in the result buffer; the arguments agree. -/
theorem algebraic : Cert.algebraic_KernelIdeal_ReferenceIdeal := by
  intro m ρ m' ρ' _ hagree
  refine ⟨fun c => Cert.Graph.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.W7_result m ρ c), (h c).2⟩)
      (Cert.KernelIdeal.Final.run (F := Ideal) m ρ)
  · refine (θ_run Cert.ReferenceIdeal.defs _ _).mono (fun _ h c => ⟨(h c).1.trans ?_, (h c).2⟩)
      (Cert.ReferenceIdeal.Final.run (F := Ideal) m' ρ')
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
